-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x2048x64 : Shape := ⟨4, ![8, 8, 2048, 64]⟩
abbrev S8x2048x2048 : Shape := ⟨3, ![8, 2048, 2048]⟩
abbrev S_ : Shape := ⟨0, ![]⟩

class Facts : Prop where
  bcast_S_S8x8x2048x64 : S_.BroadcastsInDim S8x8x2048x64 (![] : Fin 0 → Fin S8x8x2048x64.rank)
  reducesTo_S8x8x2048x64_S_d0_1_2_3 : S8x8x2048x64.ReducesTo [0, 1, 2, 3] S_
  h_S_ : 0 < S_.numel

variable [Facts]

def fn {F : FTy → Type} [FloatOps F] (main_arg0 : FVec F S8x8x2048x64 .f32) (main_arg1 : FVec F S8x8x2048x64 .f32) (main_arg2 : FVec F S8x8x2048x64 .f32) (main_arg3 : IVec S8x2048x2048 32) : IVec S_ 1 :=
  let main_v0 : FVec F S8x8x2048x64 .f32 := Host.absf main_arg0
  let main_cst : FVec F S_ .f32 := constant S_ .f32 0x7F800000#32
  let main_v1 : FVec F S8x8x2048x64 .f32 := broadcastInDim S8x8x2048x64 ![] bcast_S_S8x8x2048x64 main_cst
  let main_v2 : IVec S8x8x2048x64 1 := cmpf .olt main_v0 main_v1
  let main_c : IVec S_ 1 := constantI S_ 1 1#1
  let main_v3 : IVec S_ 1 := (fun x v => Host.reduce IntOp.andi x v reducesTo_S8x8x2048x64_S_d0_1_2_3 h_S_) main_v2 main_c
  let main_v4 : FVec F S8x8x2048x64 .f32 := Host.absf main_arg1
  let main_cst_0 : FVec F S_ .f32 := constant S_ .f32 0x7F800000#32
  let main_v5 : FVec F S8x8x2048x64 .f32 := broadcastInDim S8x8x2048x64 ![] bcast_S_S8x8x2048x64 main_cst_0
  let main_v6 : IVec S8x8x2048x64 1 := cmpf .olt main_v4 main_v5
  let main_c_1 : IVec S_ 1 := constantI S_ 1 1#1
  let main_v7 : IVec S_ 1 := (fun x v => Host.reduce IntOp.andi x v reducesTo_S8x8x2048x64_S_d0_1_2_3 h_S_) main_v6 main_c_1
  let main_v8 : IVec S_ 1 := andi main_v3 main_v7
  let main_v9 : FVec F S8x8x2048x64 .f32 := Host.absf main_arg2
  let main_cst_2 : FVec F S_ .f32 := constant S_ .f32 0x7F800000#32
  let main_v10 : FVec F S8x8x2048x64 .f32 := broadcastInDim S8x8x2048x64 ![] bcast_S_S8x8x2048x64 main_cst_2
  let main_v11 : IVec S8x8x2048x64 1 := cmpf .olt main_v9 main_v10
  let main_c_3 : IVec S_ 1 := constantI S_ 1 1#1
  let main_v12 : IVec S_ 1 := (fun x v => Host.reduce IntOp.andi x v reducesTo_S8x8x2048x64_S_d0_1_2_3 h_S_) main_v11 main_c_3
  let main_v13 : IVec S_ 1 := andi main_v8 main_v12
  main_v13
-- ==== Kernel.lean ====
abbrev S8x8x2048x64 : Shape := ⟨4, ![8, 8, 2048, 64]⟩
abbrev S8x2048x2048 : Shape := ⟨3, ![8, 2048, 2048]⟩
abbrev S1x8x128x64 : Shape := ⟨4, ![1, 8, 128, 64]⟩
abbrev S1x8x2048x64 : Shape := ⟨4, ![1, 8, 2048, 64]⟩
abbrev S1x128x2048 : Shape := ⟨3, ![1, 128, 2048]⟩
abbrev S128x2048 : Shape := ⟨2, ![128, 2048]⟩
abbrev S1x1x128x64 : Shape := ⟨4, ![1, 1, 128, 64]⟩
abbrev S128x64 : Shape := ⟨2, ![128, 64]⟩
abbrev S1x1x2048x64 : Shape := ⟨4, ![1, 1, 2048, 64]⟩
abbrev S2048x64 : Shape := ⟨2, ![2048, 64]⟩
abbrev S128 : Shape := ⟨1, ![128]⟩
abbrev S128x1 : Shape := ⟨2, ![128, 1]⟩

abbrev nBuf : Space → Nat
  | .hbm => 5
  | .vmem => 8
  | .smem => 0
  | _ => 0

abbrev bufTy : (tb : Table) → Fin (tcTables nBuf tb) → BufTy
  | .hbm, ⟨0, _⟩ => ⟨S8x8x2048x64, .f32⟩
  | .hbm, ⟨1, _⟩ => ⟨S8x8x2048x64, .f32⟩
  | .hbm, ⟨2, _⟩ => ⟨S8x8x2048x64, .f32⟩
  | .hbm, ⟨3, _⟩ => ⟨S8x2048x2048, .i32⟩
  | .hbm, ⟨4, _⟩ => ⟨S8x8x2048x64, .f32⟩
  | .local _ .vmem, ⟨0, _⟩ => ⟨S1x8x128x64, .f32⟩
  | .local _ .vmem, ⟨1, _⟩ => ⟨S1x8x128x64, .f32⟩
  | .local _ .vmem, ⟨2, _⟩ => ⟨S1x8x2048x64, .f32⟩
  | .local _ .vmem, ⟨3, _⟩ => ⟨S1x8x2048x64, .f32⟩
  | .local _ .vmem, ⟨4, _⟩ => ⟨S1x128x2048, .i32⟩
  | .local _ .vmem, ⟨5, _⟩ => ⟨S1x128x2048, .i32⟩
  | .local _ .vmem, ⟨6, _⟩ => ⟨S1x8x128x64, .f32⟩
  | .local _ .vmem, ⟨7, _⟩ => ⟨S1x8x128x64, .f32⟩
  | _, _ => ⟨S8x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32_2 : BitVec 32 := 0#32
  let c8_i32 : BitVec 32 := 8#32
  let v4 : BitVec 32 := Scalar.addi c0_i32_2 c8_i32
  let c1_i32 : BitVec 32 := 1#32
  ⟨c0_i32_2, v4, c1_i32⟩
def k0_off1 (k0_t1 : Fin k0_t1_loop.trips) : Fin 4 → Nat :=
  let c0_4 : Index := 0#32
  let c0_i32_2 : BitVec 32 := 0#32
  let c1_i32 : BitVec 32 := 1#32
  let arg7 : BitVec 32 := Scf.iv c0_i32_2 c1_i32 k0_t1
  let v5 : Index := Scalar.indexCast arg7
  let c0_5 : Index := 0#32
  let c0_6 : Index := 0#32
  ![0, v5.toNat, 0, 0]
def k0_off2 (k0_t1 : Fin k0_t1_loop.trips) : Fin 4 → Nat :=
  let c0_7 : Index := 0#32
  let c0_i32_2 : BitVec 32 := 0#32
  let c1_i32 : BitVec 32 := 1#32
  let arg7 : BitVec 32 := Scf.iv c0_i32_2 c1_i32 k0_t1
  let v8 : Index := Scalar.indexCast arg7
  let c0_8 : Index := 0#32
  let c0_9 : Index := 0#32
  ![0, v8.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8x2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x8x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x128x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  h_S1x1x128x64 : 0 < S1x1x128x64.numel
  shapeCasts_S1x1x128x64_S128x64 : S1x1x128x64.ShapeCasts S128x64
  h_S1x1x2048x64 : 0 < S1x1x2048x64.numel
  shapeCasts_S1x1x2048x64_S2048x64 : S1x1x2048x64.ShapeCasts S2048x64
  bitsLt_bf16_f32 : FTy.bits .bf16 < FTy.bits .f32
  reduces_S128x2048_S128 : S128x2048.Reduces [1] S128
  shapeCasts_S128_S128x1 : S128.ShapeCasts S128x1
  broadcasts_S128x1_S128x2048 : S128x1.Broadcasts S128x2048
  shapeCasts_S128x64_S1x1x128x64 : S128x64.ShapeCasts S1x1x128x64
  dot_S128x64_S2048x64_S128x2048_1_1_0_0_n_n_wf : DotDims.WF S128x64 S2048x64 S128x2048 [1] [1] [0] [0] [] []
  dot_S128x2048_S2048x64_S128x64_1_0_0_1_n_n_wf : DotDims.WF S128x2048 S2048x64 S128x64 [1] [0] [0] [1] [] []
  hrank0 : 0 < grid0.rank
  k0_t1_ok : k0_t1_loop.OK
  k0_off1_inb : ∀ k0_t1 : Fin k0_t1_loop.trips, ∀ a, (k0_off1 k0_t1) a + S1x1x128x64.size a ≤ S1x8x128x64.size a
  k0_off2_inb : ∀ k0_t1 : Fin k0_t1_loop.trips, ∀ a, (k0_off2 k0_t1) a + S1x1x2048x64.size a ≤ S1x8x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x128x64.size a ≤ S8x8x2048x64.size a
  hwx0_0 : ∀ i : grid0.Coords, EltTy.bits .f32 = 32 ∨ (Rect.block (s := S8x8x2048x64) S1x8x128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8x2048x64.size a ≤ S8x8x2048x64.size a
  hwx0_1 : ∀ i : grid0.Coords, EltTy.bits .f32 = 32 ∨ (Rect.block (s := S8x8x2048x64) S1x8x2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8x2048x64.size a ≤ S8x8x2048x64.size a
  hwx0_2 : ∀ i : grid0.Coords, EltTy.bits .f32 = 32 ∨ (Rect.block (s := S8x8x2048x64) S1x8x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x2048.size a ≤ S8x2048x2048.size a
  hwx0_3 : ∀ i : grid0.Coords, EltTy.bits .i32 = 32 ∨ (Rect.block (s := S8x2048x2048) S1x128x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128x64.size a ≤ S8x8x2048x64.size a
  hwx0_4 : ∀ i : grid0.Coords, EltTy.bits .f32 = 32 ∨ (Rect.block (s := S8x8x2048x64) S1x8x128x64.size (cc0_transform_4 i) (hinb0_4 i)).WholeWords (EltTy.packing .f32)

variable [Facts₀]

def dot_S128x64_S2048x64_S128x2048_1_1_0_0_n_n : DotDims S128x64 S2048x64 S128x2048 where
  lhsContracting := [1]
  rhsContracting := [1]
  lhsNonContracting := [0]
  rhsNonContracting := [0]
  lhsBatch := []
  rhsBatch := []
  wf := dot_S128x64_S2048x64_S128x2048_1_1_0_0_n_n_wf
def dot_S128x2048_S2048x64_S128x64_1_0_0_1_n_n : DotDims S128x2048 S2048x64 S128x64 where
  lhsContracting := [1]
  rhsContracting := [0]
  lhsNonContracting := [0]
  rhsNonContracting := [1]
  lhsBatch := []
  rhsBatch := []
  wf := dot_S128x2048_S2048x64_S128x64_1_0_0_1_n_n_wf

abbrev win0_0 : Pipeline.Window sig grid0 :=
  Pipeline.Window.ofSpec (Memref.whole main_arg0) S1x8x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8x2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x8x128x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x8x2048x64 : Shape := ⟨4, ![8, 8, 2048, 64]⟩
abbrev S8x2048x2048 : Shape := ⟨3, ![8, 2048, 2048]⟩
abbrev S_ : Shape := ⟨0, ![]⟩
abbrev S8x8x2048x2048 : Shape := ⟨4, ![8, 8, 2048, 2048]⟩
abbrev S8x1x2048x2048 : Shape := ⟨4, ![8, 1, 2048, 2048]⟩
abbrev S8x8x2048 : Shape := ⟨3, ![8, 8, 2048]⟩
abbrev S8x8x2048x1 : Shape := ⟨4, ![8, 8, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S8x8x2048x64, .f32⟩
  | .hbm, ⟨1, _⟩ => ⟨S8x8x2048x64, .f32⟩
  | .hbm, ⟨2, _⟩ => ⟨S8x8x2048x64, .f32⟩
  | .hbm, ⟨3, _⟩ => ⟨S8x2048x2048, .i32⟩
  | .hbm, ⟨4, _⟩ => ⟨S_, .f32⟩
  | .hbm, ⟨5, _⟩ => ⟨S8x8x2048x64, .f32⟩
  | .hbm, ⟨6, _⟩ => ⟨S8x8x2048x64, .f32⟩
  | .hbm, ⟨7, _⟩ => ⟨S8x8x2048x2048, .f32⟩
  | .hbm, ⟨8, _⟩ => ⟨S8x1x2048x2048, .i32⟩
  | .hbm, ⟨9, _⟩ => ⟨S_, .i32⟩
  | .hbm, ⟨10, _⟩ => ⟨S8x1x2048x2048, .i32⟩
  | .hbm, ⟨11, _⟩ => ⟨S8x1x2048x2048, .i1⟩
  | .hbm, ⟨12, _⟩ => ⟨S_, .f32⟩
  | .hbm, ⟨13, _⟩ => ⟨S_, .f32⟩
  | .hbm, ⟨14, _⟩ => ⟨S8x8x2048x2048, .i1⟩
  | .hbm, ⟨15, _⟩ => ⟨S8x8x2048x2048, .f32⟩
  | .hbm, ⟨16, _⟩ => ⟨S8x8x2048x2048, .f32⟩
  | .hbm, ⟨17, _⟩ => ⟨S_, .f32⟩
  | .hbm, ⟨18, _⟩ => ⟨S8x8x2048, .f32⟩
  | .hbm, ⟨19, _⟩ => ⟨S_, .f32⟩
  | .hbm, ⟨20, _⟩ => ⟨S8x8x2048, .f32⟩
  | .hbm, ⟨21, _⟩ => ⟨S8x8x2048, .f32⟩
  | .hbm, ⟨22, _⟩ => ⟨S8x8x2048x1, .f32⟩
  | .hbm, ⟨23, _⟩ => ⟨S8x8x2048x2048, .f32⟩
  | .hbm, ⟨24, _⟩ => ⟨S8x8x2048x2048, .f32⟩
  | .hbm, ⟨25, _⟩ => ⟨S8x8x2048x2048, .f32⟩
  | .hbm, ⟨26, _⟩ => ⟨S_, .f32⟩
  | .hbm, ⟨27, _⟩ => ⟨S8x8x2048, .f32⟩
  | .hbm, ⟨28, _⟩ => ⟨S8x8x2048x1, .f32⟩
  | .hbm, ⟨29, _⟩ => ⟨S8x8x2048x2048, .f32⟩
  | .hbm, ⟨30, _⟩ => ⟨S8x8x2048x2048, .f32⟩
  | .hbm, ⟨31, _⟩ => ⟨S8x8x2048x64, .f32⟩
  | _, _ => ⟨S8x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]

class Facts₀ : Prop where
  bcast_S_S8x8x2048x64 : S_.BroadcastsInDim S8x8x2048x64 (![] : Fin 0 → Fin S8x8x2048x64.rank)
  bcast_S8x2048x2048_S8x1x2048x2048_0_2_3 : S8x2048x2048.BroadcastsInDim S8x1x2048x2048 (![0, 2, 3] : Fin 3 → Fin S8x1x2048x2048.rank)
  bcast_S_S8x1x2048x2048 : S_.BroadcastsInDim S8x1x2048x2048 (![] : Fin 0 → Fin S8x1x2048x2048.rank)
  bcast_S8x1x2048x2048_S8x8x2048x2048_0_1_2_3 : S8x1x2048x2048.BroadcastsInDim S8x8x2048x2048 (![0, 1, 2, 3] : Fin 4 → Fin S8x8x2048x2048.rank)
  bcast_S_S8x8x2048x2048 : S_.BroadcastsInDim S8x8x2048x2048 (![] : Fin 0 → Fin S8x8x2048x2048.rank)
  reducesTo_S8x8x2048x2048_S8x8x2048_d3 : S8x8x2048x2048.ReducesTo [3] S8x8x2048
  h_S_ : 0 < S_.numel
  bcast_S_S8x8x2048 : S_.BroadcastsInDim S8x8x2048 (![] : Fin 0 → Fin S8x8x2048.rank)
  bcast_S8x8x2048_S8x8x2048x1_0_1_2 : S8x8x2048.BroadcastsInDim S8x8x2048x1 (![0, 1, 2] : Fin 3 → Fin S8x8x2048x1.rank)
  bcast_S8x8x2048x1_S8x8x2048x2048_0_1_2_3 : S8x8x2048x1.BroadcastsInDim S8x8x2048x2048 (![0, 1, 2, 3] : Fin 4 → Fin S8x8x2048x2048.rank)
  dot_S8x8x2048x64_S8x8x2048x64_S8x8x2048x2048_3_3_2_2_01_01_wf : DotDims.WF S8x8x2048x64 S8x8x2048x64 S8x8x2048x2048 [3] [3] [2] [2] [0, 1] [0, 1]
  dot_S8x8x2048x2048_S8x8x2048x64_S8x8x2048x64_3_2_2_3_01_01_wf : DotDims.WF S8x8x2048x2048 S8x8x2048x64 S8x8x2048x64 [3] [2] [2] [3] [0, 1] [0, 1]

variable [Facts₀]

def dot_S8x8x2048x64_S8x8x2048x64_S8x8x2048x2048_3_3_2_2_01_01 : DotDims S8x8x2048x64 S8x8x2048x64 S8x8x2048x2048 where
  lhsContracting := [3]
  rhsContracting := [3]
  lhsNonContracting := [2]
  rhsNonContracting := [2]
  lhsBatch := [0, 1]
  rhsBatch := [0, 1]
  wf := dot_S8x8x2048x64_S8x8x2048x64_S8x8x2048x2048_3_3_2_2_01_01_wf
def dot_S8x8x2048x2048_S8x8x2048x64_S8x8x2048x64_3_2_2_3_01_01 : DotDims S8x8x2048x2048 S8x8x2048x64 S8x8x2048x64 where
  lhsContracting := [3]
  rhsContracting := [2]
  lhsNonContracting := [2]
  rhsNonContracting := [3]
  lhsBatch := [0, 1]
  rhsBatch := [0, 1]
  wf := dot_S8x8x2048x2048_S8x8x2048x64_S8x8x2048x64_3_2_2_3_01_01_wf

class Facts : Prop extends Facts₀ where

variable [Facts]
-- ==== Proof.LibMaxFold.lean ====
/-
  Folds of `max` over finite index sets in a linear order, from an arbitrary starting value.

  A fold of `max` is characterised by its universal property (it is below `c` iff the start and every term are;
  `c` is below it iff `c` is below the start or below some term), so two folds are compared term by term, whatever the
  order in which the terms are visited and whatever the index sets are. The last lemma is the one a blocked maximum
  needs: when an index set is cut in four parts, the fold over the whole is the `max` of the four partial folds, each
  taken from the SAME start — the start is then met four times instead of once, which changes nothing because `max` is
  idempotent.
-/
import Mathlib.Data.Finset.Fold
import Mathlib.Data.Fintype.Basic

namespace Cert.LibMaxFold

variable {α : Type*} [LinearOrder α]

/-- The starting value is below the fold. -/
theorem start_le_fold_max {ι : Type*} (s : Finset ι) (f : ι → α) (b : α) : b ≤ s.fold max b f :=
  (Finset.le_fold_max _).2 (Or.inl le_rfl)

/-- Every term is below the fold. -/
theorem term_le_fold_max {ι : Type*} (s : Finset ι) (f : ι → α) (b : α) {x : ι} (hx : x ∈ s) : f x ≤ s.fold max b f :=
  (Finset.le_fold_max _).2 (Or.inr ⟨x, hx, le_rfl⟩)

/-- A fold of `max` is below another fold from the same start as soon as each of its terms is below some term of
    the other. -/
theorem fold_max_le_fold_max {ι κ : Type*} (s : Finset ι) (t : Finset κ) (f : ι → α) (g : κ → α) (b : α)
    (h : ∀ x ∈ s, ∃ y ∈ t, f x ≤ g y) : s.fold max b f ≤ t.fold max b g :=
  (Finset.fold_max_le _).2 ⟨start_le_fold_max t g b, fun x hx => by
    obtain ⟨y, hy, hxy⟩ := h x hx
    exact hxy.trans (term_le_fold_max t g b hy)⟩

/-- Two folds of `max` from the same start whose terms are the same VALUES (each term of one is a term of the other)
    are equal. -/
theorem fold_max_congr_of_terms {ι κ : Type*} (s : Finset ι) (t : Finset κ) (f : ι → α) (g : κ → α) (b : α)
    (h₁ : ∀ x ∈ s, ∃ y ∈ t, f x = g y) (h₂ : ∀ y ∈ t, ∃ x ∈ s, g y = f x) : s.fold max b f = t.fold max b g :=
  le_antisymm
    (fold_max_le_fold_max s t f g b fun x hx => by obtain ⟨y, hy, e⟩ := h₁ x hx; exact ⟨y, hy, e.le⟩)
    (fold_max_le_fold_max t s g f b fun y hy => by obtain ⟨x, hx, e⟩ := h₂ y hy; exact ⟨x, hx, e.le⟩)

/-- THE BLOCKED MAXIMUM. If every term of `f` is a term of one of four families `g₀ … g₃`, and every term of each
    family is a term of `f`, then the fold of `max` over `f` is the `max` of the four folds over the families, all from
    the same start `b`, nested to the left as a running maximum accumulates them. -/
theorem fold_max_eq_max_four {ι κ : Type*} [Fintype ι] [Fintype κ] (f : ι → α) (g₀ g₁ g₂ g₃ : κ → α) (b : α)
    (hsplit : ∀ x, (∃ y, f x = g₀ y) ∨ (∃ y, f x = g₁ y) ∨ (∃ y, f x = g₂ y) ∨ (∃ y, f x = g₃ y))
    (h₀ : ∀ y, ∃ x, g₀ y = f x) (h₁ : ∀ y, ∃ x, g₁ y = f x) (h₂ : ∀ y, ∃ x, g₂ y = f x) (h₃ : ∀ y, ∃ x, g₃ y = f x) :
    (Finset.univ : Finset ι).fold max b f
      = max (max (max ((Finset.univ : Finset κ).fold max b g₀) ((Finset.univ : Finset κ).fold max b g₁))
          ((Finset.univ : Finset κ).fold max b g₂)) ((Finset.univ : Finset κ).fold max b g₃) := by
  have part : ∀ g : κ → α, (∀ y, ∃ x, g y = f x) →
      (Finset.univ : Finset κ).fold max b g ≤ (Finset.univ : Finset ι).fold max b f := fun g hg =>
    fold_max_le_fold_max _ _ g f b fun y _ => by
      obtain ⟨x, e⟩ := hg y; exact ⟨x, Finset.mem_univ x, e.le⟩
  apply le_antisymm
  · refine (Finset.fold_max_le _).2 ⟨?_, fun x _ => ?_⟩
    · exact (start_le_fold_max _ g₀ b).trans
        (le_max_of_le_left (le_max_of_le_left (le_max_left _ _)))
    · rcases hsplit x with ⟨y, e⟩ | ⟨y, e⟩ | ⟨y, e⟩ | ⟨y, e⟩
      · exact (e.le.trans (term_le_fold_max _ g₀ b (Finset.mem_univ y))).trans
          (le_max_of_le_left (le_max_of_le_left (le_max_left _ _)))
      · exact (e.le.trans (term_le_fold_max _ g₁ b (Finset.mem_univ y))).trans
          (le_max_of_le_left (le_max_of_le_left (le_max_right _ _)))
      · exact (e.le.trans (term_le_fold_max _ g₂ b (Finset.mem_univ y))).trans
          (le_max_of_le_left (le_max_right _ _))
      · exact (e.le.trans (term_le_fold_max _ g₃ b (Finset.mem_univ y))).trans (le_max_right _ _)
  · exact max_le (max_le (max_le (part g₀ h₀) (part g₁ h₁)) (part g₂ h₂)) (part g₃ h₃)

end Cert.LibMaxFold
-- ==== Proof.Attn.lean ====
import Mathlib.Data.Finset.Fold
import Idealize.ShloMosaic.PureOps.Ideal
import Idealize.ShloMosaic.PureOps.Ideal.Laws
import Idealize.ShloMosaic.Lib.ValueIdx
import proofs.«134512_j35931696398380_2_alg».proof.Proof.LibMaxFold

/-!
  Masked softmax attention on the extended reals, one query row at a time.

  For a batch `b`, a head `h` and a query position `r`, the score against key position `j` is the inner product over the
  64 features of the scaled query row with key row `j`, replaced by the constant −10⁹ where the mask entry `(b, r, j)` is
  zero (the mask has no head axis: all heads of a batch share it). The row's weights are `exp (s j − M) / ∑ exp (s j' − M)`
  with `M` the maximum of the scores taken from −∞, and the result at feature `d` is the weighted sum of the values
  `v (b, h, j, d)`. The scaling of the query enters as a function, so that "times 1/8" and "divided by 8" are two
  instances of the same definition; they are the same function of an extended real (`scaleDiv_eq_scaleMul`).
-/

noncomputable section

open scoped BigOperators

namespace Cert.Attn

open Idealize.ShloMosaic Idealize.ShloMosaic.ValueIdx

/-- The value a masked score is replaced by: the f32 number −10⁹. -/
abbrev negBig : EReal := Ideal.ofBits .f32 0xCE6E6B28#32

/-- The value the row maximum starts from: the f32 word of −∞. -/
abbrev negInf : EReal := Ideal.ofBits .f32 0xFF800000#32

/-- The masked scores of one query row against the 2048 key rows. -/
def scoreRow (scale : EReal → EReal) (q : Fin 64 → EReal) (k : Fin 2048 → Fin 64 → EReal) (msk : Fin 2048 → BitVec 32)
    (j : Fin 2048) : EReal :=
  Scalar.select (IntOp.cmpi .eq (msk j) 0#32) negBig (∑ e : Fin 64, scale (q e) * k j e)

/-- The maximum of a row of scores, taken from −∞. -/
def rowMax (s : Fin 2048 → EReal) : EReal := (Finset.univ : Finset (Fin 2048)).fold max negInf s

/-- The softmax of a row of scores applied to a column of values. -/
def softRow (s v : Fin 2048 → EReal) : EReal :=
  ∑ j : Fin 2048, Ideal.div (Ideal.exp (s j - rowMax s)) (∑ j' : Fin 2048, Ideal.exp (s j' - rowMax s)) * v j

/-- Scaling by the f32 number 0.125. -/
def scaleMul (x : EReal) : EReal := x * Ideal.ofBits .f32 0x3E000000#32

/-- Scaling by division by the f32 number 8. -/
def scaleDiv (x : EReal) : EReal := Ideal.div x (Ideal.ofBits .f32 0x41000000#32)

/-- The f32 word 0x41000000 is the real number 8. -/
theorem ofBits_eight : Ideal.ofBits .f32 0x41000000#32 = ((8 : ℝ) : EReal) := by
  simp [Ideal.ofBits, Ideal.ieee, -EReal.coe_mul]; norm_num

/-- The f32 word 0x3E000000 is the real number 1/8. -/
theorem ofBits_eighth : Ideal.ofBits .f32 0x3E000000#32 = ((1 / 8 : ℝ) : EReal) := by
  simp [Ideal.ofBits, Ideal.ieee, -EReal.coe_mul]; norm_num

/-- Dividing an extended real by 8 is multiplying it by 1/8, at the infinities too. -/
theorem scaleDiv_eq_scaleMul : scaleDiv = scaleMul := by
  funext x
  unfold scaleDiv scaleMul
  rw [ofBits_eight, ofBits_eighth]
  exact Ideal.div_coe (by norm_num) x

/-- The maximum from −∞ is not changed by taking its maximum with −∞ once more. -/
theorem max_negInf_rowMax (s : Fin 2048 → EReal) : max negInf (rowMax s) = rowMax s :=
  max_eq_right (Cert.LibMaxFold.start_le_fold_max _ s negInf)

/-- Attention at batch `b`, head `h`, query position `r`, feature `d`, of the query, key and value arrays
    `[8, 8, 2048, 64]` and the mask `[8, 2048, 2048]`. -/
def attnAt (scale : EReal → EReal) (q k v : (⟨4, ![8, 8, 2048, 64]⟩ : Shape).Idx → EReal)
    (msk : (⟨3, ![8, 2048, 2048]⟩ : Shape).Idx → BitVec 32) (b h : Fin 8) (r : Fin 2048) (d : Fin 64) : EReal :=
  softRow (scoreRow scale (fun e => q (ix4 b h r e)) (fun j e => k (ix4 b h j e)) (fun j => msk (ix3 b r j)))
    (fun j => v (ix4 b h j d))

/-- The whole result array. -/
def attn (q k v : (⟨4, ![8, 8, 2048, 64]⟩ : Shape).Idx → EReal) (msk : (⟨3, ![8, 2048, 2048]⟩ : Shape).Idx → BitVec 32) :
    (⟨4, ![8, 8, 2048, 64]⟩ : Shape).Idx → EReal :=
  fun i => attnAt scaleMul q k v msk (i 0) (i 1) (i 2) (i 3)

end Cert.Attn

end
-- ==== Proof.RefAttn.lean ====
import proofs.«134512_j35931696398380_2_alg».proof.Proof.Gen.ReferenceIdeal.Read
import proofs.«134512_j35931696398380_2_alg».proof.Proof.Attn
import Idealize.ShloMosaic.PureOps.Reduce

/-!
  The reference program computes masked softmax attention.

  Its operations are read at an index one after the other: the masked scores (the select over the broadcast mask
  comparison, the constant −10⁹ and the product of the query divided by 8 with the keys), the row maximum (a maximum
  over the key axis from −∞, then once more against −∞), the exponentials of the differences, their row sums from 0, the
  quotients, and the product with the values. Row by row this is `Cert.Attn.softRow` of `Cert.Attn.scoreRow`, with the
  scaling "divide by 8", which is the scaling "times 1/8".
-/

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

variable (x0 x1 x2 : (⟨S8x8x2048x64, .f32⟩ : BufTy).Contents (Elt Ideal)) (x3 : (⟨S8x2048x2048, .i32⟩ : BufTy).Contents (Elt Ideal))

/-- The scores of query row `(b, h, r)`, as the reference scales them. -/
abbrev refScores (b h : Fin 8) (r : Fin 2048) : Fin 2048 → EReal :=
  scoreRow scaleDiv (fun e => x0 (ix4 b h r e)) (fun j e => x1 (ix4 b h j e)) (fun j => x3 (ix3 b r j))

/-- The select's result at `(b, h, r, j)` is the masked score. -/
theorem score_apply (b h : Fin 8) (r j : Fin 2048) :
    val_main_v6 (F := Ideal) x0 x1 x3 (ix4 b h r j) = refScores x0 x1 x3 b h r j := by
  rw [val_main_v6_apply, val_main_call0_v1_apply, val_main_v5_apply, val_main_v3_apply, val_main_v4_apply, val_main_c_apply,
    val_main_call0_v2_apply, val_main_call0_v0_apply, val_main_cst_0_apply, val_main_v2_apply]
  have e3 : idx_main_v3 (idx_main_call0_v1 (ix4 b h r j)) = ix3 b r j :=
    funext fun a => Fin.ext (by match a with | ⟨0, _⟩ => rfl | ⟨1, _⟩ => rfl | ⟨2, _⟩ => rfl)
  have el : ∀ e : Fin 64, lidx_main_v2 (ix4 b h r j) e = ix4 b h r e := fun e =>
    funext fun a => Fin.ext (by match a with | ⟨0, _⟩ => rfl | ⟨1, _⟩ => rfl | ⟨2, _⟩ => rfl | ⟨3, _⟩ => rfl)
  have er : ∀ e : Fin 64, ridx_main_v2 (ix4 b h r j) e = ix4 b h j e := fun e =>
    funext fun a => Fin.ext (by match a with | ⟨0, _⟩ => rfl | ⟨1, _⟩ => rfl | ⟨2, _⟩ => rfl | ⟨3, _⟩ => rfl)
  rw [e3]
  simp only [el, er]
  rfl

/-- The reduced index `(b, h, r)` with key position `k` put back is `(b, h, r, k)`. -/
theorem lift_key (hR : S8x8x2048x2048.Reduces [3] S8x8x2048) (b h : Fin 8) (r : Fin 2048) (k : Fin (S8x8x2048x2048.size 3)) :
    hR.lift (ix3 b h r) k = ix4 b h r (⟨k.val, k.isLt⟩ : Fin 2048) :=
  funext fun a => Fin.ext (by match a with | ⟨0, _⟩ => rfl | ⟨1, _⟩ => rfl | ⟨2, _⟩ => rfl | ⟨3, _⟩ => rfl)

/-- The maximum the reference subtracts, at row `(b, h, r)`, is the row maximum of the scores. -/
theorem rowMax_apply (b h : Fin 8) (r : Fin 2048) :
    val_main_v9 (F := Ideal) x0 x1 x3 (ix3 b h r) = rowMax (refScores x0 x1 x3 b h r) := by
  rw [val_main_v9_apply, val_main_v8_apply, val_main_cst_2_apply]
  have hR : S8x8x2048x2048.Reduces [3] S8x8x2048 := by decide
  unfold val_main_v7
  rw [Host.reduce_eq_fold_single FloatOps.maximumf _ _ reducesTo_S8x8x2048x2048_S8x8x2048_d3 hR h_S_]
  have hf : (val_main_v6 (F := Ideal) x0 x1 x3 ∘ hR.lift (ix3 b h r)) = refScores x0 x1 x3 b h r :=
    funext fun k => (congrArg (val_main_v6 (F := Ideal) x0 x1 x3) (lift_key hR b h r k)).trans (score_apply x0 x1 x3 b h r _)
  rw [hf]
  exact max_negInf_rowMax _

/-- The exponential the reference takes at `(b, h, r, j)`: of the score minus the row maximum. -/
theorem exp_apply (b h : Fin 8) (r j : Fin 2048) :
    val_main_v13 (F := Ideal) x0 x1 x3 (ix4 b h r j)
      = Ideal.exp (refScores x0 x1 x3 b h r j - rowMax (refScores x0 x1 x3 b h r)) := by
  rw [val_main_v13_apply, val_main_v12_apply, val_main_v11_apply, val_main_v10_apply]
  have e : idx_main_v10 (idx_main_v11 (ix4 b h r j)) = ix3 b h r :=
    funext fun a => Fin.ext (by match a with | ⟨0, _⟩ => rfl | ⟨1, _⟩ => rfl | ⟨2, _⟩ => rfl)
  rw [e, rowMax_apply, score_apply]
  rfl

/-- The row sum of the exponentials, at row `(b, h, r)`. -/
theorem sum_apply (b h : Fin 8) (r : Fin 2048) :
    val_main_v14 (F := Ideal) x0 x1 x3 (ix3 b h r)
      = ∑ j : Fin 2048, Ideal.exp (refScores x0 x1 x3 b h r j - rowMax (refScores x0 x1 x3 b h r)) := by
  rw [val_main_v14_apply, val_main_cst_3_apply]
  show Ideal.ofBits .f32 0x00000000#32 + _ = _
  rw [Ideal.ofBits_zero_f32, zero_add]
  refine Finset.sum_congr rfl fun j _ => ?_
  have e : idx_main_v14 (ix3 b h r) j = ix4 b h r j :=
    funext fun a => Fin.ext (by match a with | ⟨0, _⟩ => rfl | ⟨1, _⟩ => rfl | ⟨2, _⟩ => rfl | ⟨3, _⟩ => rfl)
  rw [e, exp_apply]

/-- The weight the reference gives key `j` in row `(b, h, r)`. -/
theorem weight_apply (b h : Fin 8) (r j : Fin 2048) :
    val_main_v17 (F := Ideal) x0 x1 x3 (ix4 b h r j)
      = Ideal.div (Ideal.exp (refScores x0 x1 x3 b h r j - rowMax (refScores x0 x1 x3 b h r)))
          (∑ j' : Fin 2048, Ideal.exp (refScores x0 x1 x3 b h r j' - rowMax (refScores x0 x1 x3 b h r))) := by
  rw [val_main_v17_apply, val_main_v16_apply, val_main_v15_apply]
  have e : idx_main_v15 (idx_main_v16 (ix4 b h r j)) = ix3 b h r :=
    funext fun a => Fin.ext (by match a with | ⟨0, _⟩ => rfl | ⟨1, _⟩ => rfl | ⟨2, _⟩ => rfl)
  rw [e, sum_apply, exp_apply]
  rfl

/-- The reference's result is masked softmax attention of its four arguments. -/
theorem result_eq : val_main_v18 (F := Ideal) x0 x1 x2 x3 = attn x0 x1 x2 x3 := by
  funext i
  obtain ⟨b, h, r, d, rfl⟩ : ∃ (b h : Fin 8) (r : Fin 2048) (d : Fin 64), i = ix4 b h r d := ⟨i 0, i 1, i 2, i 3, eq_ix4 i⟩
  rw [val_main_v18_apply]
  show _ = attnAt scaleMul x0 x1 x2 x3 b h r d
  rw [← scaleDiv_eq_scaleMul]
  unfold attnAt softRow
  refine Finset.sum_congr rfl fun j _ => ?_
  have el : lidx_main_v18 (ix4 b h r d) j = ix4 b h r j :=
    funext fun a => Fin.ext (by match a with | ⟨0, _⟩ => rfl | ⟨1, _⟩ => rfl | ⟨2, _⟩ => rfl | ⟨3, _⟩ => rfl)
  have er : ridx_main_v18 (ix4 b h r d) j = ix4 b h j d :=
    funext fun a => Fin.ext (by match a with | ⟨0, _⟩ => rfl | ⟨1, _⟩ => rfl | ⟨2, _⟩ => rfl | ⟨3, _⟩ => rfl)
  rw [el, er, weight_apply]

end Cert.ReferenceIdeal.RefValue

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.KernelPayload.lean ====
import proofs.«134512_j35931696398380_2_alg».proof.Proof.Gen.KernelIdeal.Skeleton
import proofs.«134512_j35931696398380_2_alg».proof.Proof.Attn
import proofs.«134512_j35931696398380_2_alg».proof.Proof.LibKeepdims
import Idealize.ShloMosaic.Lib.Pipeline.Value
import Idealize.ShloMosaic.Lib.ValueLayout

/-!
  What one trip of the kernel's loop over the heads stores, read at an index.

  A trip loads one head's query tile `[1, 1, 128, 64]`, key and value slabs `[1, 1, 2048, 64]`, and uses the mask tile
  `[1, 128, 2048]` loaded before the loop. Its stored value is cut in two: the masked scores `[128, 2048]` (the product
  of the query tile times 0.125 with the keys, contracted over the 64 features, replaced by −10⁹ where the mask is zero)
  and the softmax of those scores applied to the values (row maximum, exponentials, row sums, quotients, product with
  the value slab). Read at query row `r` and feature `d` this is `Cert.Attn.softRow` of `Cert.Attn.scoreRow`.
-/

noncomputable section

open scoped BigOperators

namespace Cert.KernelIdeal.Pay

open Cert.KernelIdeal Cert.KernelIdeal.Gen Idealize.ShloMosaic Idealize.ShloMosaic.ValueIdx Cert.Attn

variable {α : Type}

/-! ## Layout operations at an index -/

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp [hu, hu'])

/-- At the ideal values the maximum of an `[a, b]` matrix along its rows is, at `i`, the fold of `max` from the
    accumulator's value over the entries `(i, k)`. -/
theorem rowMaxFold_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (FloatOps.ofBits φ acc) (fun k => src (ix2 i k)) := by
  refine (Ideal.multiReduction_maximumf_single src acc h hφ hacc (ix1 i)).trans ?_
  exact congrArg (fun f => Finset.fold max (FloatOps.ofBits φ acc) f (Finset.univ : Finset (Fin b)))
    (funext fun k => congrArg src (funext fun ax => Fin.ext (by
      match ax with
      | ⟨0, _⟩ => rfl
      | ⟨1, _⟩ => rfl)))

/-! ## The two matrix products at an index -/

local notation "dQK" => dot_S128x64_S2048x64_S128x2048_1_1_0_0_n_n
local notation "dPV" => dot_S128x2048_S2048x64_S128x64_1_0_0_1_n_n

theorem qk_lhs0 (i : S128x2048.Idx) (q : (dQK).contr.Idx) : ((dQK).lhsIdx i q 0).val = (i 0).val := by
  unfold DotDims.lhsIdx
  rw [dif_neg (show ¬(0 : Fin S128x64.rank) ∈ (dQK).lhsBatch by decide),
    dif_pos (show (0 : Fin S128x64.rank) ∈ (dQK).lhsNonContracting by decide)]
  rfl
theorem qk_lhs1 (i : S128x2048.Idx) (q : (dQK).contr.Idx) : ((dQK).lhsIdx i q 1).val = (q ⟨0, by decide⟩).val :=
  (dQK).lhsIdx_val_of_single rfl i q
theorem qk_rhs0 (i : S128x2048.Idx) (q : (dQK).contr.Idx) : ((dQK).rhsIdx i q 0).val = (i 1).val := by
  unfold DotDims.rhsIdx
  rw [dif_neg (show ¬(0 : Fin S2048x64.rank) ∈ (dQK).rhsBatch by decide),
    dif_pos (show (0 : Fin S2048x64.rank) ∈ (dQK).rhsNonContracting by decide)]
  rfl
theorem qk_rhs1 (i : S128x2048.Idx) (q : (dQK).contr.Idx) : ((dQK).rhsIdx i q 1).val = (q ⟨0, by decide⟩).val :=
  (dQK).rhsIdx_val_of_single rfl i q

/-- Queries times keys, both contracted over their feature axis, into the zero splat: at `(r, j)` the inner product of
    query row `r` with key row `j`. -/
theorem qk_apply {φ₁ φ₂ : FTy} (a : FVec Ideal S128x64 φ₁) (b : FVec Ideal S2048x64 φ₂) (r : Fin 128) (j : Fin 2048) :
    matmul dQK none a b (constant S128x2048 .f32 0x00000000#32) (ix2 r j) = ∑ e : Fin 64, a (ix2 r e) * b (ix2 j e) := by
  refine (Ideal.matmul_constant_zero_apply dQK none a b (ix2 r j)).trans ?_
  rw [← Equiv.sum_comp (contrEquiv1 dQK 64 rfl rfl).symm]
  refine Finset.sum_congr rfl fun e _ => ?_
  have hk := contrEquiv1_symm_val dQK 64 rfl rfl e
  have el : (dQK).lhsIdx (ix2 r j) ((contrEquiv1 dQK 64 rfl rfl).symm e) = ix2 r e := funext fun ax => Fin.ext (by
    match ax with
    | ⟨0, _⟩ => exact qk_lhs0 _ _
    | ⟨1, _⟩ => exact (qk_lhs1 _ _).trans hk)
  have er : (dQK).rhsIdx (ix2 r j) ((contrEquiv1 dQK 64 rfl rfl).symm e) = ix2 j e := funext fun ax => Fin.ext (by
    match ax with
    | ⟨0, _⟩ => exact qk_rhs0 _ _
    | ⟨1, _⟩ => exact (qk_rhs1 _ _).trans hk)
  rw [el, er]

theorem pv_lhs0 (i : S128x64.Idx) (q : (dPV).contr.Idx) : ((dPV).lhsIdx i q 0).val = (i 0).val := by
  unfold DotDims.lhsIdx
  rw [dif_neg (show ¬(0 : Fin S128x2048.rank) ∈ (dPV).lhsBatch by decide),
    dif_pos (show (0 : Fin S128x2048.rank) ∈ (dPV).lhsNonContracting by decide)]
  rfl
theorem pv_lhs1 (i : S128x64.Idx) (q : (dPV).contr.Idx) : ((dPV).lhsIdx i q 1).val = (q ⟨0, by decide⟩).val :=
  (dPV).lhsIdx_val_of_single rfl i q
theorem pv_rhs0 (i : S128x64.Idx) (q : (dPV).contr.Idx) : ((dPV).rhsIdx i q 0).val = (q ⟨0, by decide⟩).val :=
  (dPV).rhsIdx_val_of_single rfl i q
theorem pv_rhs1 (i : S128x64.Idx) (q : (dPV).contr.Idx) : ((dPV).rhsIdx i q 1).val = (i 1).val := by
  unfold DotDims.rhsIdx
  rw [dif_neg (show ¬(1 : Fin S2048x64.rank) ∈ (dPV).rhsBatch by decide),
    dif_pos (show (1 : Fin S2048x64.rank) ∈ (dPV).rhsNonContracting by decide)]
  rfl

/-- Weights times values into the zero splat: at `(r, d)` the sum over the key positions. -/
theorem pv_apply {φ₁ φ₂ : FTy} (a : FVec Ideal S128x2048 φ₁) (b : FVec Ideal S2048x64 φ₂) (r : Fin 128) (d : Fin 64) :
    matmul dPV none a b (constant S128x64 .f32 0x00000000#32) (ix2 r d) = ∑ j : Fin 2048, a (ix2 r j) * b (ix2 j d) := by
  refine (Ideal.matmul_constant_zero_apply dPV none a b (ix2 r d)).trans ?_
  rw [← Equiv.sum_comp (contrEquiv1 dPV 2048 rfl rfl).symm]
  refine Finset.sum_congr rfl fun j _ => ?_
  have hk := contrEquiv1_symm_val dPV 2048 rfl rfl j
  have el : (dPV).lhsIdx (ix2 r d) ((contrEquiv1 dPV 2048 rfl rfl).symm j) = ix2 r j := funext fun ax => Fin.ext (by
    match ax with
    | ⟨0, _⟩ => exact pv_lhs0 _ _
    | ⟨1, _⟩ => exact (pv_lhs1 _ _).trans hk)
  have er : (dPV).rhsIdx (ix2 r d) ((contrEquiv1 dPV 2048 rfl rfl).symm j) = ix2 j d := funext fun ax => Fin.ext (by
    match ax with
    | ⟨0, _⟩ => exact (pv_rhs0 _ _).trans hk
    | ⟨1, _⟩ => exact pv_rhs1 _ _)
  rw [el, er]

/-! ## The stored value, in two halves -/

/-- The masked scores of the query tile against the key slab. -/
def scoresBlk (v0 : Vec Ideal S1x128x2048 .i32) (v6 : Vec Ideal S1x1x128x64 .f32) (v9 : Vec Ideal S1x1x2048x64 .f32) :
    FVec Ideal S128x2048 .f32 :=
  select (cmpi .eq (shapeCast S128x2048 v0 shapeCasts_S1x128x2048_S128x2048) (broadcast S128x2048 0#32))
    (broadcast S128x2048 (Scalar.ofBits .f32 0xCE6E6B28#32))
    (matmul dQK none
      (truncf .bf16 (mulf (shapeCast S128x64 v6 shapeCasts_S1x1x128x64_S128x64)
        (broadcast S128x64 (Scalar.ofBits .f32 0x3E000000#32))) bitsLt_bf16_f32)
      (truncf .bf16 (shapeCast S2048x64 v9 shapeCasts_S1x1x2048x64_S2048x64) bitsLt_bf16_f32)
      (constant S128x2048 .f32 0x00000000#32))

/-- The softmax of a block of scores applied to the value slab, as the body computes it. -/
def softBlk (s : FVec Ideal S128x2048 .f32) (v12 : Vec Ideal S1x1x2048x64 .f32) : FVec Ideal S1x1x128x64 .f32 :=
  have v21 : FVec Ideal S128 .f32 := multiReduction .maximumf [1] S128 s 0xFF800000#32 reduces_S128x2048_S128 (.inl rfl) rfl
  have v24 : FVec Ideal S128x2048 .f32 :=
    subf s (broadcastTo S128x2048 (shapeCast S128x1 v21 shapeCasts_S128_S128x1) broadcasts_S128x1_S128x2048)
  have v25 : FVec Ideal S128x2048 .f32 := exp v24
  have v26 : FVec Ideal S128 .f32 := multiReduction .add [1] S128 v25 0x00000000#32 reduces_S128x2048_S128 (.inl rfl) rfl
  have v29 : FVec Ideal S128x2048 .f32 :=
    divf v25 (broadcastTo S128x2048 (shapeCast S128x1 v26 shapeCasts_S128_S128x1) broadcasts_S128x1_S128x2048)
  shapeCast S1x1x128x64
    (matmul dPV none (truncf .bf16 v29 bitsLt_bf16_f32)
      (truncf .bf16 (shapeCast S2048x64 v12 shapeCasts_S1x1x2048x64_S2048x64) bitsLt_bf16_f32)
      (constant S128x64 .f32 0x00000000#32))
    shapeCasts_S128x64_S1x1x128x64

/-- The trip's stored value is the softmax half applied to the scores half. -/
theorem pay_eq (v0 : Vec Ideal S1x128x2048 .i32) (v6 : Vec Ideal S1x1x128x64 .f32) (v9 v12 : Vec Ideal S1x1x2048x64 .f32) :
    k0_pay1 (F := Ideal) v0 v6 v9 v12 = softBlk (scoresBlk v0 v6 v9) v12 := rfl

/-- The scores half at `(r, j)`: the masked score of query row `r` against key row `j`. -/
theorem scoresBlk_apply (v0 : Vec Ideal S1x128x2048 .i32) (v6 : Vec Ideal S1x1x128x64 .f32) (v9 : Vec Ideal S1x1x2048x64 .f32)
    (r : Fin 128) (j : Fin 2048) :
    scoresBlk v0 v6 v9 (ix2 r j)
      = scoreRow scaleMul (fun e => v6 (ix4 (0 : Fin 1) (0 : Fin 1) r e)) (fun j e => v9 (ix4 (0 : Fin 1) (0 : Fin 1) j e))
          (fun j => v0 (ix3 (0 : Fin 1) r j)) j := by
  unfold scoresBlk scoreRow
  show Scalar.select (IntOp.cmpi .eq (shapeCast S128x2048 v0 shapeCasts_S1x128x2048_S128x2048 (ix2 r j)) 0#32) negBig
      (matmul (F := Ideal) dQK none _ _ (constant S128x2048 .f32 0x00000000#32) (ix2 r j)) = _
  rw [shapeCast_1ab_ab_apply, qk_apply]
  refine congrArg (Scalar.select _ negBig) (Finset.sum_congr rfl fun e _ => ?_)
  show shapeCast S128x64 v6 shapeCasts_S1x1x128x64_S128x64 (ix2 r e) * Ideal.ofBits .f32 0x3E000000#32
      * shapeCast S2048x64 v9 shapeCasts_S1x1x2048x64_S2048x64 (ix2 j e) = _
  rw [shapeCast_11ab_ab_apply, shapeCast_11ab_ab_apply]
  rfl

/-- The softmax half at `(0, 0, r, d)`: the softmax of score row `r` applied to feature `d` of the values. -/
theorem softBlk_apply (s : FVec Ideal S128x2048 .f32) (v12 : Vec Ideal S1x1x2048x64 .f32) (u u' : Fin 1) (r : Fin 128) (d : Fin 64) :
    softBlk s v12 (ix4 u u' r d)
      = softRow (fun j => s (ix2 r j)) (fun j => v12 (ix4 (0 : Fin 1) (0 : Fin 1) j d)) := by
  unfold softBlk
  dsimp only
  rw [shapeCast_ab_11ab_apply, pv_apply]
  unfold softRow
  have hmax : ∀ j : Fin 2048,
      broadcastTo S128x2048 (shapeCast S128x1
        (multiReduction .maximumf [1] S128 s 0xFF800000#32 reduces_S128x2048_S128 (.inl rfl) rfl) shapeCasts_S128_S128x1)
        broadcasts_S128x1_S128x2048 (ix2 r j) = rowMax (fun j => s (ix2 r j)) := fun j => by
    rw [Cert.LibKeepdims.broadcastTo_a1_ab_apply, Cert.LibKeepdims.shapeCast_a_a1_apply]
    exact rowMaxFold_apply s 0xFF800000#32 reduces_S128x2048_S128 (.inl rfl) rfl r
  have hexp : ∀ j : Fin 2048,
      exp (subf s (broadcastTo S128x2048 (shapeCast S128x1
        (multiReduction .maximumf [1] S128 s 0xFF800000#32 reduces_S128x2048_S128 (.inl rfl) rfl) shapeCasts_S128_S128x1)
        broadcasts_S128x1_S128x2048)) (ix2 r j) = Ideal.exp (s (ix2 r j) - rowMax (fun j => s (ix2 r j))) := fun j => by
    show Ideal.exp (s (ix2 r j) - _) = _
    rw [hmax]
  refine Finset.sum_congr rfl fun j _ => ?_
  show Ideal.div (exp (F := Ideal) (φ := .f32) _ (ix2 r j)) (broadcastTo S128x2048 (shapeCast S128x1 _ shapeCasts_S128_S128x1) broadcasts_S128x1_S128x2048 (ix2 r j))
      * shapeCast S2048x64 v12 shapeCasts_S1x1x2048x64_S2048x64 (ix2 j d) = _
  rw [hexp, Cert.LibKeepdims.broadcastTo_a1_ab_apply, Cert.LibKeepdims.shapeCast_a_a1_apply, shapeCast_11ab_ab_apply]
  refine congrArg (fun t => Ideal.div _ t * _) ?_
  refine (Cert.LibKeepdims.rowSum_apply _ 0x00000000#32 reduces_S128x2048_S128 (.inl rfl) rfl r).trans ?_
  exact Finset.sum_congr rfl fun j' _ => hexp j'

/-- One trip's stored value at `(0, 0, r, d)`. -/
theorem pay_apply (v0 : Vec Ideal S1x128x2048 .i32) (v6 : Vec Ideal S1x1x128x64 .f32) (v9 v12 : Vec Ideal S1x1x2048x64 .f32)
    (u u' : Fin 1) (r : Fin 128) (d : Fin 64) :
    k0_pay1 (F := Ideal) v0 v6 v9 v12 (ix4 u u' r d)
      = softRow (scoreRow scaleMul (fun e => v6 (ix4 (0 : Fin 1) (0 : Fin 1) r e))
          (fun j e => v9 (ix4 (0 : Fin 1) (0 : Fin 1) j e)) (fun j => v0 (ix3 (0 : Fin 1) r j)))
          (fun j => v12 (ix4 (0 : Fin 1) (0 : Fin 1) j d)) := by
  rw [pay_eq, softBlk_apply]
  exact congrArg (fun f => softRow f _) (funext fun j => scoresBlk_apply v0 v6 v9 r j)

end Cert.KernelIdeal.Pay

end
-- ==== Proof.KernelBlock.lean ====
import proofs.«134512_j35931696398380_2_alg».proof.Proof.Gen.KernelIdeal.Frame
import proofs.«134512_j35931696398380_2_alg».proof.Proof.KernelPayload
import Idealize.ShloMosaic.Lib.WholeRead
import Idealize.ShloMosaic.Lib.Writes

/-!
  What the kernel body leaves in its output block at one grid point.

  The body loops over the eight heads; trip `k` reads head `k` of the query tile and of the key and value slabs and
  stores one `[1, 1, 128, 64]` piece at head `k` of the output block. The eight pieces tile the block, and each piece
  agrees with one function of the block index: at `(0, h, r, d)` the softmax attention of query row `r` of head `h`
  against that head's keys and values under mask row `r`. So the block read back after the loop is that function.
-/

noncomputable section

open scoped BigOperators

namespace Cert.KernelIdeal.Blk

open Cert.KernelIdeal Cert.KernelIdeal.Gen Cert.KernelIdeal.Pay Idealize.ShloMosaic Idealize.ShloMosaic.TcCoe
  Idealize.ShloMosaic.ValueIdx Idealize.SL.Sem Cert.Attn

/-- Attention of query row `r` of head `h` of the point's blocks, at feature `d`. -/
def blockVal (x0 : Vec Ideal S1x8x128x64 .f32) (x1 x2 : Vec Ideal S1x8x2048x64 .f32) (x3 : Vec Ideal S1x128x2048 .i32) (h : Fin 8) (r : Fin 128) (d : Fin 64) : EReal :=
  softRow (scoreRow scaleMul (fun e => x0 (ix4 (0 : Fin 1) h r e)) (fun j e => x1 (ix4 (0 : Fin 1) h j e))
      (fun j => x3 (ix3 (0 : Fin 1) r j)))
    (fun j => x2 (ix4 (0 : Fin 1) h j d))

/-- The same as a function of the output block's index. -/
def blockFn (x0 : Vec Ideal S1x8x128x64 .f32) (x1 x2 : Vec Ideal S1x8x2048x64 .f32) (x3 : Vec Ideal S1x128x2048 .i32) : S1x8x128x64.Idx → EReal :=
  fun y => blockVal x0 x1 x2 x3 (y 1) (y 2) (y 3)

/-- A trip index is a head. -/
theorem trip_lt (k : Fin k0_t1_loop.trips) : k.val < 8 := Nat.lt_of_lt_of_le k.isLt k0_t1_abs.2.1

/-- The query tile and the output piece of trip `k` sit at head `k` of their blocks. -/
theorem idx_head128 (k : Fin k0_t1_loop.trips) (u u' : Fin 1) (r : Fin 128) (d : Fin 64) :
    (Rect.unit (s := S1x8x128x64) (k0_off1 k) S1x1x128x64.size (k0_off1_inb k)).toLoadRect.idx (ix4 u u' r d)
      = ix4 (0 : Fin 1) (⟨k.val, trip_lt k⟩ : Fin 8) r d := by
  funext a; apply Fin.ext
  show k0_off1 k a + 1 * (ix4 u u' r d a).val = _
  rw [k0_off1_eq k]
  match a with
  | ⟨0, _⟩ => show 0 + 1 * u.val = 0; omega
  | ⟨1, _⟩ => show k.val + 1 * u'.val = k.val; omega
  | ⟨2, _⟩ => show 0 + 1 * r.val = r.val; omega
  | ⟨3, _⟩ => show 0 + 1 * d.val = d.val; omega

/-- The key and value slabs of trip `k` sit at head `k` of their blocks. -/
theorem idx_head2048 (k : Fin k0_t1_loop.trips) (u u' : Fin 1) (j : Fin 2048) (d : Fin 64) :
    (Rect.unit (s := S1x8x2048x64) (k0_off2 k) S1x1x2048x64.size (k0_off2_inb k)).toLoadRect.idx (ix4 u u' j d)
      = ix4 (0 : Fin 1) (⟨k.val, trip_lt k⟩ : Fin 8) j d := by
  funext a; apply Fin.ext
  show k0_off2 k a + 1 * (ix4 u u' j d a).val = _
  rw [k0_off2_eq k]
  match a with
  | ⟨0, _⟩ => show 0 + 1 * u.val = 0; omega
  | ⟨1, _⟩ => show k.val + 1 * u'.val = k.val; omega
  | ⟨2, _⟩ => show 0 + 1 * j.val = j.val; omega
  | ⟨3, _⟩ => show 0 + 1 * d.val = d.val; omega

/-- The mask tile is loaded whole. -/
theorem idx_mask (u : Fin 1) (r : Fin 128) (j : Fin 2048) :
    (Rect.unit (s := S1x128x2048) ![0, 0, 0] S1x128x2048.size inb_S1x128x2048_S1x128x2048_0_0_0).toLoadRect.idx (ix3 u r j)
      = ix3 (0 : Fin 1) r j := by
  funext a; apply Fin.ext
  rw [LoadRect.idx_apply, Rect.off_unit, Rect.stride_unit]
  match a with
  | ⟨0, _⟩ => show 0 + 1 * u.val = 0; omega
  | ⟨1, _⟩ => show 0 + 1 * r.val = r.val; omega
  | ⟨2, _⟩ => show 0 + 1 * j.val = j.val; omega

variable (arg2 : Memref sig .tc .vmem S1x8x128x64 .f32) (harg2 : arg2.IsWhole) (arg3 : Memref sig .tc .vmem S1x8x2048x64 .f32) (harg3 : arg3.IsWhole) (arg4 : Memref sig .tc .vmem S1x8x2048x64 .f32) (harg4 : arg4.IsWhole) (arg5 : Memref sig .tc .vmem S1x128x2048 .i32) (harg5 : arg5.IsWhole) (arg6 : Memref sig .tc .vmem S1x8x128x64 .f32) (harg6 : arg6.IsWhole) (x0 : Vec Ideal S1x8x128x64 .f32) (x1 x2 : Vec Ideal S1x8x2048x64 .f32) (x3 : Vec Ideal S1x128x2048 .i32)

/-- What trip `k` stores agrees, at every index of its piece, with the block function at the piece's place. -/
theorem piece_agree (k : Fin k0_t1_loop.trips) (x : (⟨4, ![1, 1, 128, 64]⟩ : Shape).Idx) :
    k0_pay1 (F := Ideal) (View.readAt (Elt Ideal) arg5.view (Rect.unit (s := S1x128x2048) ![0, 0, 0] S1x128x2048.size inb_S1x128x2048_S1x128x2048_0_0_0).toLoadRect (harg5.unread x3)) (View.readAt (Elt Ideal) arg2.view (Rect.unit (s := S1x8x128x64) (k0_off1 k) S1x1x128x64.size (k0_off1_inb k)).toLoadRect (harg2.unread x0)) (View.readAt (Elt Ideal) arg3.view (Rect.unit (s := S1x8x2048x64) (k0_off2 k) S1x1x2048x64.size (k0_off2_inb k)).toLoadRect (harg3.unread x1)) (View.readAt (Elt Ideal) arg4.view (Rect.unit (s := S1x8x2048x64) (k0_off2 k) S1x1x2048x64.size (k0_off2_inb k)).toLoadRect (harg4.unread x2)) x
      = blockFn x0 x1 x2 x3 ((Rect.unit (s := S1x8x128x64) (k0_off1 k) S1x1x128x64.size (k0_off1_inb k)).emb x) := by
  obtain ⟨u, u', r, d, rfl⟩ : ∃ (u u' : Fin 1) (r : Fin 128) (d : Fin 64), x = ix4 u u' r d := ⟨x 0, x 1, x 2, x 3, eq_ix4 x⟩
  have hemb : (Rect.unit (s := S1x8x128x64) (k0_off1 k) S1x1x128x64.size (k0_off1_inb k)).emb (ix4 u u' r d)
      = ix4 (0 : Fin 1) (⟨k.val, trip_lt k⟩ : Fin 8) r d := idx_head128 k u u' r d
  rw [hemb, pay_apply]
  show _ = blockVal x0 x1 x2 x3 ⟨k.val, trip_lt k⟩ r d
  unfold blockVal
  have hq : (fun e : Fin 64 => (View.readAt (Elt Ideal) arg2.view (Rect.unit (s := S1x8x128x64) (k0_off1 k) S1x1x128x64.size (k0_off1_inb k)).toLoadRect (harg2.unread x0)) (ix4 (0 : Fin 1) (0 : Fin 1) r e))
      = fun e => x0 (ix4 (0 : Fin 1) (⟨k.val, trip_lt k⟩ : Fin 8) r e) :=
    funext fun e => (harg2.readAt_unread x0 _ _).trans (congrArg x0 (idx_head128 k 0 0 r e))
  have hk : (fun (j : Fin 2048) (e : Fin 64) => (View.readAt (Elt Ideal) arg3.view (Rect.unit (s := S1x8x2048x64) (k0_off2 k) S1x1x2048x64.size (k0_off2_inb k)).toLoadRect (harg3.unread x1)) (ix4 (0 : Fin 1) (0 : Fin 1) j e))
      = fun j e => x1 (ix4 (0 : Fin 1) (⟨k.val, trip_lt k⟩ : Fin 8) j e) :=
    funext fun j => funext fun e => (harg3.readAt_unread x1 _ _).trans (congrArg x1 (idx_head2048 k 0 0 j e))
  have hm : (fun j : Fin 2048 => (View.readAt (Elt Ideal) arg5.view (Rect.unit (s := S1x128x2048) ![0, 0, 0] S1x128x2048.size inb_S1x128x2048_S1x128x2048_0_0_0).toLoadRect (harg5.unread x3)) (ix3 (0 : Fin 1) r j)) = fun j => x3 (ix3 (0 : Fin 1) r j) :=
    funext fun j => (harg5.readAt_unread x3 _ _).trans (congrArg x3 (idx_mask 0 r j))
  have hv : (fun j : Fin 2048 => (View.readAt (Elt Ideal) arg4.view (Rect.unit (s := S1x8x2048x64) (k0_off2 k) S1x1x2048x64.size (k0_off2_inb k)).toLoadRect (harg4.unread x2)) (ix4 (0 : Fin 1) (0 : Fin 1) j d))
      = fun j => x2 (ix4 (0 : Fin 1) (⟨k.val, trip_lt k⟩ : Fin 8) j d) :=
    funext fun j => (harg4.readAt_unread x2 _ _).trans (congrArg x2 (idx_head2048 k 0 0 j d))
  rw [hq, hk, hm, hv]

/-- The one piece trip `k` stores: the trip's value through the rectangle at head `k`. -/
theorem tripL_eq (c : Dev nD) (i : grid0.Coords) (v0 : Vec Ideal S1x128x2048 .i32)
    (X2 : BufTy.Contents (Elt Ideal) arg2.view.ty) (X3 : BufTy.Contents (Elt Ideal) arg3.view.ty)
    (X4 : BufTy.Contents (Elt Ideal) arg4.view.ty) (k : Fin k0_t1_loop.trips) :
    tripL_k0_t1 (F := Ideal) Variants.none c none i arg2 harg2 arg3 harg3 arg4 harg4 arg5 harg5 arg6 harg6 v0 X2 X3 X4 k
      = [(⟨Rect.unit (s := S1x8x128x64) (k0_off1 k) S1x1x128x64.size (k0_off1_inb k),
          k0_pay1 (F := Ideal) v0
            (View.readAt (Elt Ideal) arg2.view (Rect.unit (s := S1x8x128x64) (k0_off1 k) S1x1x128x64.size (k0_off1_inb k)).toLoadRect X2)
            (View.readAt (Elt Ideal) arg3.view (Rect.unit (s := S1x8x2048x64) (k0_off2 k) S1x1x2048x64.size (k0_off2_inb k)).toLoadRect X3)
            (View.readAt (Elt Ideal) arg4.view (Rect.unit (s := S1x8x2048x64) (k0_off2 k) S1x1x2048x64.size (k0_off2_inb k)).toLoadRect X4)⟩ :
          View.Piece (Elt Ideal) S1x8x128x64 .f32)] := by
  unfold tripL_k0_t1 trip_k0_t1
  rfl

/-- Every piece the first `n` trips store agrees with the block function. -/
theorem pb_agree (c : Dev nD) (i : grid0.Coords) : ∀ n : ℕ, n ≤ k0_t1_loop.trips →
    ∀ p ∈ pb_k0_t1 (F := Ideal) Variants.none c none i arg2 harg2 arg3 harg3 arg4 harg4 arg5 harg5 arg6 harg6 (View.readAt (Elt Ideal) arg5.view (Rect.unit (s := S1x128x2048) ![0, 0, 0] S1x128x2048.size inb_S1x128x2048_S1x128x2048_0_0_0).toLoadRect (harg5.unread x3)) (harg2.unread x0) (harg3.unread x1) (harg4.unread x2) n,
      ∀ x : p.1.shape.Idx, p.2 x = blockFn x0 x1 x2 x3 (p.1.emb x)
  | 0, _ => fun p hp => absurd hp List.not_mem_nil
  | n + 1, hn => fun p hp => by
    have e : pb_k0_t1 (F := Ideal) Variants.none c none i arg2 harg2 arg3 harg3 arg4 harg4 arg5 harg5 arg6 harg6 (View.readAt (Elt Ideal) arg5.view (Rect.unit (s := S1x128x2048) ![0, 0, 0] S1x128x2048.size inb_S1x128x2048_S1x128x2048_0_0_0).toLoadRect (harg5.unread x3)) (harg2.unread x0) (harg3.unread x1) (harg4.unread x2) (n + 1)
        = tripL_k0_t1 (F := Ideal) Variants.none c none i arg2 harg2 arg3 harg3 arg4 harg4 arg5 harg5 arg6 harg6 (View.readAt (Elt Ideal) arg5.view (Rect.unit (s := S1x128x2048) ![0, 0, 0] S1x128x2048.size inb_S1x128x2048_S1x128x2048_0_0_0).toLoadRect (harg5.unread x3)) (harg2.unread x0) (harg3.unread x1) (harg4.unread x2) ⟨n, hn⟩
          ++ pb_k0_t1 (F := Ideal) Variants.none c none i arg2 harg2 arg3 harg3 arg4 harg4 arg5 harg5 arg6 harg6 (View.readAt (Elt Ideal) arg5.view (Rect.unit (s := S1x128x2048) ![0, 0, 0] S1x128x2048.size inb_S1x128x2048_S1x128x2048_0_0_0).toLoadRect (harg5.unread x3)) (harg2.unread x0) (harg3.unread x1) (harg4.unread x2) n :=
      pb_k0_t1_succ (F := Ideal) Variants.none c none i arg2 harg2 arg3 harg3 arg4 harg4 arg5 harg5 arg6 harg6 (View.readAt (Elt Ideal) arg5.view (Rect.unit (s := S1x128x2048) ![0, 0, 0] S1x128x2048.size inb_S1x128x2048_S1x128x2048_0_0_0).toLoadRect (harg5.unread x3)) (harg2.unread x0) (harg3.unread x1) (harg4.unread x2) ⟨n, hn⟩
    rw [e, tripL_eq] at hp
    rcases List.mem_append.mp hp with h | h
    · obtain rfl := List.mem_singleton.mp h
      exact fun x => piece_agree arg2 harg2 arg3 harg3 arg4 harg4 arg5 harg5 x0 x1 x2 x3 ⟨n, hn⟩ x
    · exact pb_agree c i n (Nat.le_of_succ_le hn) p h

/-- The output block after the body, at every index: the block function of the point's input blocks. -/
theorem out_apply (c : Dev nD) (i : grid0.Coords) (y : S1x8x128x64.Idx) :
    out0_A_4 (F := Ideal) c i arg2 harg2 arg3 harg3 arg4 harg4 arg5 harg5 arg6 harg6 x0 x1 x2 x3 y = blockFn x0 x1 x2 x3 y := by
  unfold out0_A_4
  refine View.read_writes_apply_of_pieces VO0_4 _ (blockFn x0 x1 x2 x3) _ ?_ y
    (cover0_A_4 c i arg2 harg2 arg3 harg3 arg4 harg4 arg5 harg5 arg6 harg6 x0 x1 x2 x3 y)
  have hL : (kernelRun0_A (F := Ideal) c i arg2 harg2 arg3 harg3 arg4 harg4 arg5 harg5 arg6 harg6 x0 x1 x2 x3).1
      = pb_k0_t1 (F := Ideal) Variants.none c none i arg2 harg2 arg3 harg3 arg4 harg4 arg5 harg5 arg6 harg6 (View.readAt (Elt Ideal) arg5.view (Rect.unit (s := S1x128x2048) ![0, 0, 0] S1x128x2048.size inb_S1x128x2048_S1x128x2048_0_0_0).toLoadRect (harg5.unread x3)) (harg2.unread x0) (harg3.unread x1) (harg4.unread x2) k0_t1_loop.trips := by
    unfold kernelRun0_A
    rfl
  rw [hL]
  exact pb_agree arg2 harg2 arg3 harg3 arg4 harg4 arg5 harg5 arg6 harg6 x0 x1 x2 x3 c i _ le_rfl

end Cert.KernelIdeal.Blk

end
-- ==== Proof.KernelValue.lean ====
import proofs.«134512_j35931696398380_2_alg».proof.Proof.Gen.KernelIdeal.Value
import proofs.«134512_j35931696398380_2_alg».proof.Proof.KernelBlock

/-!
  The kernel's result array is masked softmax attention of its four arguments.

  The grid has a point per batch `b` and per tile `qi` of 128 query positions. The point stages the query tile
  `(b, all heads, rows 128·qi …, all features)`, the whole key and value slabs of batch `b`, the mask tile
  `(b, rows 128·qi …, all columns)`, and writes back the output tile at the query tile's place. What it writes back is
  the block function of its input blocks (the body, read block by block), and the input blocks are the argument
  arrays read at the tile's place, so the written tile is the tile of the attention array. The tiles cover the array.
-/

noncomputable section

open scoped BigOperators

namespace Cert.KernelIdeal.AttnValue

open Cert.KernelIdeal Cert.KernelIdeal.Gen Cert.KernelIdeal.Value Cert.KernelIdeal.Blk Idealize.ShloMosaic
  Idealize.ShloMosaic.TcCoe Idealize.ShloMosaic.ValueIdx Idealize.SL.Sem Cert.Attn
open Idealize.ShloMosaic.Pipeline (Dat)

/-! ## A block of attention from blocks of the arguments -/

/-- If the point's blocks are the argument arrays read at batch `b` and query tile `qi`, the block function at
    `(h, r, d)` is attention at `(b, h, 128·qi + r, d)`. -/
theorem blockVal_eq_attnAt (q k v : S8x8x2048x64.Idx → EReal) (msk : S8x2048x2048.Idx → BitVec 32)
    (x0 : Vec Ideal S1x8x128x64 .f32) (x1 x2 : Vec Ideal S1x8x2048x64 .f32) (x3 : Vec Ideal S1x128x2048 .i32)
    (b : Fin 8) (h : Fin 8) (r : Fin 128) (d : Fin 64) (R : Fin 2048)
    (h0 : ∀ e : Fin 64, x0 (ix4 (0 : Fin 1) h r e) = q (ix4 b h R e))
    (h1 : ∀ (j : Fin 2048) (e : Fin 64), x1 (ix4 (0 : Fin 1) h j e) = k (ix4 b h j e))
    (h2 : ∀ j : Fin 2048, x2 (ix4 (0 : Fin 1) h j d) = v (ix4 b h j d))
    (h3 : ∀ j : Fin 2048, x3 (ix3 (0 : Fin 1) r j) = msk (ix3 b R j)) :
    blockVal x0 x1 x2 x3 h r d = attnAt scaleMul q k v msk b h R d := by
  unfold blockVal attnAt
  rw [funext h0, funext fun j => funext (h1 j), funext h2, funext h3]

variable (m : (ℓ : Loc nD τ sig) → Buf (Elt Ideal) ℓ) (ρ : Dev nD → PrngReg)

/-- The attention array of the argument arrays as the region finds them. -/
abbrev G (c : Dev nD) : S8x8x2048x64.Idx → EReal :=
  attn (V m c main_arg0) (V m c main_arg1) (V m c main_arg2) (V m c main_arg3)

/-- The printed index maps, decided over the 128 grid points: the query, mask and output tiles move together, the key
    and value slabs follow the batch only. -/
theorem idx_facts : ∀ t : Fin cfg0.N,
    win0_0.index t (0 : Fin 4) = win0_4.index t (0 : Fin 4) ∧ win0_0.index t (1 : Fin 4) = 0
    ∧ win0_0.index t (2 : Fin 4) = win0_4.index t (2 : Fin 4) ∧ win0_0.index t (3 : Fin 4) = 0
    ∧ win0_1.index t (0 : Fin 4) = win0_4.index t (0 : Fin 4) ∧ win0_1.index t (1 : Fin 4) = 0
    ∧ win0_1.index t (2 : Fin 4) = 0 ∧ win0_1.index t (3 : Fin 4) = 0
    ∧ win0_2.index t (0 : Fin 4) = win0_4.index t (0 : Fin 4) ∧ win0_2.index t (1 : Fin 4) = 0
    ∧ win0_2.index t (2 : Fin 4) = 0 ∧ win0_2.index t (3 : Fin 4) = 0
    ∧ win0_3.index t (0 : Fin 3) = win0_4.index t (0 : Fin 4) ∧ win0_3.index t (1 : Fin 3) = win0_4.index t (2 : Fin 4)
    ∧ win0_3.index t (2 : Fin 3) = 0
    ∧ win0_4.index t (1 : Fin 4) = 0 ∧ win0_4.index t (3 : Fin 4) = 0
    ∧ win0_4.index t (0 : Fin 4) < 8 ∧ win0_4.index t (2 : Fin 4) < 16 :=
  (by decide +kernel : ∀ t : Fin grid0.N, _)

/-- Every pair of a batch and a query tile is some point's. -/
theorem idx_onto : ∀ (q0 : Fin 8) (q2 : Fin 16), ∃ t : Fin cfg0.N, win0_4.index t = ![q0.val, 0, q2.val, 0] :=
  (by decide +kernel : ∀ (q0 : Fin 8) (q2 : Fin 16), ∃ t : Fin grid0.N, win0_4.index t = ![q0.val, 0, q2.val, 0])

/-- WHAT POINT `t` WRITES BACK is block `t` of the attention array. -/
theorem flushed_eq (c : Dev nD) (t : Fin cfg0.N) :
    (dats m 0 c).flushed 4 t = ((cfg0.win 4).blk t).view.read (Elt Ideal) (G m c) := by
  rw [flushed4_A]
  show (fun y : S1x8x128x64.Idx => out0_A_4 (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) y)
    = fun y : S1x8x128x64.Idx => G m c (((cfg0.win 4).blk t).view.emb y)
  funext y
  refine (out_apply (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) c (grid0.coords t) y).trans ?_
  obtain ⟨u, h, r, d, rfl⟩ : ∃ (u : Fin 1) (h : Fin 8) (r : Fin 128) (d : Fin 64), y = ix4 u h r d :=
    ⟨y 0, y 1, y 2, y 3, eq_ix4 y⟩
  obtain ⟨a00, a01, a02, a03, a10, a11, a12, a13, a20, a21, a22, a23, a30, a31, a32, a41, a43, lt0, lt2⟩ := idx_facts t
  have hR : win0_4.index t (2 : Fin 4) * 128 + r.val < 2048 := by have := r.isLt; omega
  have hemb : ((cfg0.win 4).blk t).view.emb (ix4 u h r d)
      = ix4 (⟨win0_4.index t (0 : Fin 4), lt0⟩ : Fin 8) h (⟨win0_4.index t (2 : Fin 4) * 128 + r.val, hR⟩ : Fin 2048) d := by
    funext a; apply Fin.ext
    match a with
    | ⟨0, _⟩ => show win0_4.index t (0 : Fin 4) * 1 + 1 * u.val = win0_4.index t (0 : Fin 4); have := u.isLt; omega
    | ⟨1, _⟩ => show win0_4.index t (1 : Fin 4) * 8 + 1 * h.val = h.val; omega
    | ⟨2, _⟩ => show win0_4.index t (2 : Fin 4) * 128 + 1 * r.val = win0_4.index t (2 : Fin 4) * 128 + r.val; omega
    | ⟨3, _⟩ => show win0_4.index t (3 : Fin 4) * 64 + 1 * d.val = d.val; omega
  show blockVal (iblk m c 0 t) (iblk m c 1 t) (iblk m c 2 t) (iblk m c 3 t) h r d = _
  rw [hemb]
  show _ = attnAt scaleMul (V m c main_arg0) (V m c main_arg1) (V m c main_arg2) (V m c main_arg3)
    (⟨win0_4.index t (0 : Fin 4), lt0⟩ : Fin 8) h (⟨win0_4.index t (2 : Fin 4) * 128 + r.val, hR⟩ : Fin 2048) d
  refine blockVal_eq_attnAt (V m c main_arg0) (V m c main_arg1) (V m c main_arg2) (V m c main_arg3)
    (iblk m c 0 t) (iblk m c 1 t) (iblk m c 2 t) (iblk m c 3 t) _ h r d _ (fun e => ?_) (fun j e => ?_) (fun j => ?_) (fun j => ?_)
  · show V m c main_arg0 (((cfg0.win 0).blk t).view.emb (ix4 (0 : Fin 1) h r e)) = _
    refine congrArg (V m c main_arg0) (funext fun a => Fin.ext ?_)
    match a with
    | ⟨0, _⟩ => show win0_0.index t (0 : Fin 4) * 1 + 1 * 0 = win0_4.index t (0 : Fin 4); omega
    | ⟨1, _⟩ => show win0_0.index t (1 : Fin 4) * 8 + 1 * h.val = h.val; omega
    | ⟨2, _⟩ => show win0_0.index t (2 : Fin 4) * 128 + 1 * r.val = win0_4.index t (2 : Fin 4) * 128 + r.val; omega
    | ⟨3, _⟩ => show win0_0.index t (3 : Fin 4) * 64 + 1 * e.val = e.val; omega
  · show V m c main_arg1 (((cfg0.win 1).blk t).view.emb (ix4 (0 : Fin 1) h j e)) = _
    refine congrArg (V m c main_arg1) (funext fun a => Fin.ext ?_)
    match a with
    | ⟨0, _⟩ => show win0_1.index t (0 : Fin 4) * 1 + 1 * 0 = win0_4.index t (0 : Fin 4); omega
    | ⟨1, _⟩ => show win0_1.index t (1 : Fin 4) * 8 + 1 * h.val = h.val; omega
    | ⟨2, _⟩ => show win0_1.index t (2 : Fin 4) * 2048 + 1 * j.val = j.val; omega
    | ⟨3, _⟩ => show win0_1.index t (3 : Fin 4) * 64 + 1 * e.val = e.val; omega
  · show V m c main_arg2 (((cfg0.win 2).blk t).view.emb (ix4 (0 : Fin 1) h j d)) = _
    refine congrArg (V m c main_arg2) (funext fun a => Fin.ext ?_)
    match a with
    | ⟨0, _⟩ => show win0_2.index t (0 : Fin 4) * 1 + 1 * 0 = win0_4.index t (0 : Fin 4); omega
    | ⟨1, _⟩ => show win0_2.index t (1 : Fin 4) * 8 + 1 * h.val = h.val; omega
    | ⟨2, _⟩ => show win0_2.index t (2 : Fin 4) * 2048 + 1 * j.val = j.val; omega
    | ⟨3, _⟩ => show win0_2.index t (3 : Fin 4) * 64 + 1 * d.val = d.val; omega
  · show V m c main_arg3 (((cfg0.win 3).blk t).view.emb (ix3 (0 : Fin 1) r j)) = _
    refine congrArg (V m c main_arg3) (funext fun a => Fin.ext ?_)
    match a with
    | ⟨0, _⟩ => show win0_3.index t (0 : Fin 3) * 1 + 1 * 0 = win0_4.index t (0 : Fin 4); omega
    | ⟨1, _⟩ => show win0_3.index t (1 : Fin 3) * 128 + 1 * r.val = win0_4.index t (2 : Fin 4) * 128 + r.val; omega
    | ⟨2, _⟩ => show win0_3.index t (2 : Fin 3) * 2048 + 1 * j.val = j.val; omega

/-- An index of the array is in point `t`'s output tile iff each coordinate is in the tile's range on its axis. -/
theorem mem_blk (t : Fin cfg0.N) (i : S8x8x2048x64.Idx) :
    i ∈ ((cfg0.win 4).blk t).view.set ↔ ∀ a : Fin 4, win0_4.index t a * S1x8x128x64.size a ≤ (i a).val
      ∧ (i a).val < win0_4.index t a * S1x8x128x64.size a + S1x8x128x64.size a := by
  show i ∈ ((View.whole main_v0).slice (win0_4.rect t)).set ↔ _
  rw [View.set_slice_whole, Rect.mem_set_unit]
  exact Iff.rfl

/-- The output tiles cover the array: index `i` is in the tile of batch `i 0` and query tile `i 2 / 128`. -/
theorem cover (i : S8x8x2048x64.Idx) :
    ∃ t : Fin cfg0.N, (cfg0.win 4).flush t = true ∧ i ∈ ((cfg0.win 4).blk t).view.set := by
  have hi0 : (i 0).val < 8 := (i 0).isLt
  have hi1 : (i 1).val < 8 := (i 1).isLt
  have hi2 : (i 2).val < 2048 := (i 2).isLt
  have hi3 : (i 3).val < 64 := (i 3).isLt
  obtain ⟨t, ht⟩ := idx_onto ⟨(i 0).val, hi0⟩ ⟨(i 2).val / 128, by omega⟩
  have q0 : win0_4.index t (0 : Fin 4) = (i 0).val := congrFun ht 0
  have q1 : win0_4.index t (1 : Fin 4) = 0 := congrFun ht 1
  have q2 : win0_4.index t (2 : Fin 4) = (i 2).val / 128 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 8 ≤ (i 1).val ∧ (i 1).val < win0_4.index t (1 : Fin 4) * 8 + 8; omega
  | ⟨2, _⟩ => show win0_4.index t (2 : Fin 4) * 128 ≤ (i 2).val ∧ (i 2).val < win0_4.index t (2 : Fin 4) * 128 + 128; omega
  | ⟨3, _⟩ => show win0_4.index t (3 : Fin 4) * 64 ≤ (i 3).val ∧ (i 3).val < win0_4.index t (3 : Fin 4) * 64 + 64; omega

/-- THE ARRAY after the run is the attention array of the arguments. -/
theorem final (c : Dev nD) :
    (dats m 0 c).arrAt 4 cfg0.N
      = attn (m ((c : Thread nD τ).loc main_arg0)) (m ((c : Thread nD τ).loc main_arg1))
          (m ((c : Thread nD τ).loc main_arg2)) (m ((c : Thread nD τ).loc main_arg3)) :=
  (dats m 0 c).arrAt_eq_of_cover 4 (G m c) (fun t _ => flushed_eq m c t) cover

/-- The kernel's run, read: the result array is the attention array of the arguments, which are unchanged. -/
theorem run : θ_run defs (onTc (τ := τ) (main (F := Ideal))) ⟨m, fun _ => 0, ρ⟩ fun r => ∀ c : Dev nD,
      r.2.mem ((c : Thread nD τ).loc main_v0)
        = attn (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.AttnValue

end
-- ==== Proof.lean ====
/-
  The kernel computes, per batch and per tile of 128 query positions, masked softmax attention for all eight heads in a loop
  over the heads, in f32 with the two matrix products taken through bf16 operands; the reference computes the same by two
  einsums around `jax.nn.softmax`. On the extended reals a change of float format is the identity, so both are the same
  function of the four arguments: the scores `(q · 1/8) kᵀ` (the reference divides by 8: the same number), replaced by −10⁹
  where the mask is zero, then row by row `exp (s − max s) / ∑ exp (s − max s)` applied to the values. No finiteness of the
  inputs is needed: both sides are the same expression term by term (`x / 8 = x · (1/8)` holds at the infinities too).

  Modules: `Attn` states the function; `RefAttn` reads the reference's operations at an index and finds it;
  `KernelPayload` reads what one trip of the head loop stores; `KernelBlock` reads the output block after the loop off
  the pieces the eight trips store; `KernelValue` goes from the blocks the grid points write back to the whole array.
  Here the five claims are assembled: the three frames, the empty idealization ledger, and the equality of the results.
-/
import proofs.«134512_j35931696398380_2_alg».proof.Defs
import proofs.«134512_j35931696398380_2_alg».proof.Proof.Gen.Kernel
import proofs.«134512_j35931696398380_2_alg».proof.Proof.Gen.Kernel.Skeleton
import proofs.«134512_j35931696398380_2_alg».proof.Proof.Gen.Kernel.Loops
import proofs.«134512_j35931696398380_2_alg».proof.Proof.Gen.Kernel.Launch
import proofs.«134512_j35931696398380_2_alg».proof.Proof.Gen.Kernel.Points
import proofs.«134512_j35931696398380_2_alg».proof.Proof.Gen.Kernel.Frame
import proofs.«134512_j35931696398380_2_alg».proof.Proof.Gen.KernelIdeal
import proofs.«134512_j35931696398380_2_alg».proof.Proof.Gen.KernelIdeal.Skeleton
import proofs.«134512_j35931696398380_2_alg».proof.Proof.Gen.KernelIdeal.Loops
import proofs.«134512_j35931696398380_2_alg».proof.Proof.Gen.KernelIdeal.Launch
import proofs.«134512_j35931696398380_2_alg».proof.Proof.Gen.KernelIdeal.Points
import proofs.«134512_j35931696398380_2_alg».proof.Proof.Gen.KernelIdeal.Frame
import proofs.«134512_j35931696398380_2_alg».proof.Proof.Gen.ReferenceIdeal
import proofs.«134512_j35931696398380_2_alg».proof.Proof.Gen.Pre_finite_inputs
import proofs.«134512_j35931696398380_2_alg».proof.Proof.Gen.KernelIdeal.Value
import proofs.«134512_j35931696398380_2_alg».proof.Proof.Gen.ReferenceIdeal.Run
import proofs.«134512_j35931696398380_2_alg».proof.Proof.Gen.ReferenceIdeal.Read
import proofs.«134512_j35931696398380_2_alg».proof.Proof.RefAttn
import proofs.«134512_j35931696398380_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as they were: its run with the result dropped. -/
theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments, the kernel's result array and the reference's are both the attention array
    of the arguments. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨_, Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v18_eq _ _ _ _).trans ?_
  rw [Cert.ReferenceIdeal.RefValue.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
